-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 64
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S1x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S128x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with the result kept.

  The program is: a stretch of host operations, the first layer's grid of fifty row blocks, a second stretch of host
  operations, the second layer's grid.  The buffer contents at the four boundaries are a fold from the launch memory:
  after a host stretch, the stretch's operations applied; after a grid, the grid's arrays at what its write-backs
  leave and every other buffer untouched.  Every weakly fair execution terminates without a fault, and in its final
  state every buffer that is not scoped to a kernel holds the last boundary's contents — in particular the result
  buffer and the ten argument buffers.
-/
import proofs.«161437_j8452495639005_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents of the last boundary of the fold. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run with the result buffer and the ten argument buffers named: the result ends at the last boundary's
    contents, the arguments as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_ends m ρ)

end Cert.KernelIdeal.Result

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.LibTransposedDense.lean ====
/-
  A layer with two dense maps against TRANSPOSED weights, entry by entry, over the extended reals (any extents).

  For node features X (M rows of K numbers), the neighbour means A of the same shape, two weight matrices Wn, Ws
  (N rows of K numbers each) and two bias vectors bn, bs of length N, entry (p, q) of the layer is

      ∑ k, A(p, k) · Wn(q, k)  +  ∑ k, X(p, k) · Ws(q, k)  +  bn(q)  +  bs(q),

  optionally floored at zero.  Both products are against the TRANSPOSED weights: row p of the features with row q of
  the weights.  This file states that entry, shows that a product into a zero accumulator on the matrix unit and the
  host's product compute such a row-by-row sum when the weights are transposed first, reads a bias row spread over all
  rows, and records the one regrouping of the four summands that is needed: addition of extended reals is commutative
  and associative, so no finiteness is asked of anything.
-/
import Idealize.ShloMosaic.PureOps.Ideal.Laws
import Idealize.ShloMosaic.Lib.ValueIdx
import Idealize.ShloMosaic.Lib.ValueLayout
import Idealize.ShloMosaic.Lib.Pipeline.Value
import proofs.«161437_j8452495639005_1_alg».proof.Proof.LibDenseEntry
import proofs.«161437_j8452495639005_1_alg».proof.Proof.LibSpreadRow

noncomputable section

namespace Cert.LibTransposedDense

open Idealize.ShloMosaic Idealize.ShloMosaic.ValueIdx

variable {M K N : ℕ}

/-- Row p of A against row q of W: ∑ k, A(p, k) · W(q, k). -/
def rowDot (A : (⟨2, ![M, K]⟩ : Shape).Idx → EReal) (W : (⟨2, ![N, K]⟩ : Shape).Idx → EReal) (p : Fin M) (q : Fin N) : EReal :=
  ∑ k : Fin K, A (ix2 p k) * W (ix2 q k)

/-- The layer before any flooring, at entry (p, q): neighbour term, self term, then the two biases in turn. -/
def affineAt (A X : (⟨2, ![M, K]⟩ : Shape).Idx → EReal) (Wn Ws : (⟨2, ![N, K]⟩ : Shape).Idx → EReal)
    (bn bs : (⟨1, ![N]⟩ : Shape).Idx → EReal) (p : Fin M) (q : Fin N) : EReal :=
  rowDot A Wn p q + rowDot X Ws p q + bn (ix1 q) + bs (ix1 q)

/-- The layer without flooring, as a whole array. -/
def affine (A X : (⟨2, ![M, K]⟩ : Shape).Idx → EReal) (Wn Ws : (⟨2, ![N, K]⟩ : Shape).Idx → EReal)
    (bn bs : (⟨1, ![N]⟩ : Shape).Idx → EReal) : (⟨2, ![M, N]⟩ : Shape).Idx → EReal :=
  fun i => affineAt A X Wn Ws bn bs (i 0) (i 1)

/-- The layer floored at zero (the zero is kept as the float word it is printed as), as a whole array. -/
def floored (A X : (⟨2, ![M, K]⟩ : Shape).Idx → EReal) (Wn Ws : (⟨2, ![N, K]⟩ : Shape).Idx → EReal)
    (bn bs : (⟨1, ![N]⟩ : Shape).Idx → EReal) : (⟨2, ![M, N]⟩ : Shape).Idx → EReal :=
  fun i => max (affineAt A X Wn Ws bn bs (i 0) (i 1)) (Ideal.ofBits .f32 0x00000000#32)

theorem affine_ix2 (A X : (⟨2, ![M, K]⟩ : Shape).Idx → EReal) (Wn Ws : (⟨2, ![N, K]⟩ : Shape).Idx → EReal)
    (bn bs : (⟨1, ![N]⟩ : Shape).Idx → EReal) (p : Fin M) (q : Fin N) :
    affine A X Wn Ws bn bs (ix2 p q) = affineAt A X Wn Ws bn bs p q := rfl

theorem floored_ix2 (A X : (⟨2, ![M, K]⟩ : Shape).Idx → EReal) (Wn Ws : (⟨2, ![N, K]⟩ : Shape).Idx → EReal)
    (bn bs : (⟨1, ![N]⟩ : Shape).Idx → EReal) (p : Fin M) (q : Fin N) :
    floored A X Wn Ws bn bs (ix2 p q) = max (affineAt A X Wn Ws bn bs p q) (Ideal.ofBits .f32 0x00000000#32) := rfl

/-- The same four summands with the first bias added before the self term: equal, because addition of extended
    reals is commutative and associative. -/
theorem affineAt_regroup (A X : (⟨2, ![M, K]⟩ : Shape).Idx → EReal) (Wn Ws : (⟨2, ![N, K]⟩ : Shape).Idx → EReal)
    (bn bs : (⟨1, ![N]⟩ : Shape).Idx → EReal) (p : Fin M) (q : Fin N) :
    rowDot A Wn p q + bn (ix1 q) + rowDot X Ws p q + bs (ix1 q) = affineAt A X Wn Ws bn bs p q := by
  unfold affineAt
  rw [add_right_comm (rowDot A Wn p q) (bn (ix1 q)) (rowDot X Ws p q)]

/-- On the matrix unit: features times the transposed weights into a zero accumulator is the row-by-row sum. -/
theorem matmul_transposed_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hT : (⟨2, ![N, K]⟩ : Shape).Transposes [1, 0] ⟨2, ![K, N]⟩)
    (a : FVec Ideal ⟨2, ![M, K]⟩ φ₁) (w : FVec Ideal ⟨2, ![N, K]⟩ φ₂) (p : Fin M) (q : Fin N) :
    matmul d prec a (transpose ⟨2, ![K, N]⟩ [1, 0] w hT) (constant ⟨2, ![M, N]⟩ .f32 0x00000000#32) (ix2 p q)
      = rowDot a w p q := by
  refine (Cert.LibDenseEntry.matmul_plain_zero_apply d h1 h2 h3 h4 h5 h6 prec a _ p q).trans ?_
  unfold rowDot
  exact Finset.sum_congr rfl fun k _ => congrArg (a (ix2 p k) * ·) (transpose_ix2_apply w hT k q)

/-- On the host: features times the transposed weights is the same row-by-row sum. -/
theorem dotGeneral_transposed_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hT : (⟨2, ![N, K]⟩ : Shape).Transposes [1, 0] ⟨2, ![K, N]⟩)
    (a : FVec Ideal ⟨2, ![M, K]⟩ φ₁) (w : FVec Ideal ⟨2, ![N, K]⟩ φ₂) (p : Fin M) (q : Fin N) :
    Host.dotGeneral d prec a (transpose ⟨2, ![K, N]⟩ [1, 0] w hT) (ix2 p q) = rowDot a w p q := by
  refine (Cert.LibDenseEntry.dotGeneral_plain_apply d h1 h2 h3 h4 h5 h6 prec .single a _ p q).trans ?_
  unfold rowDot
  exact Finset.sum_congr rfl fun k _ => congrArg (a (ix2 p k) * ·) (transpose_ix2_apply w hT k q)

/-- A [1, N] row spread over M rows reads, at (p, q), the row at (0, q). -/
theorem row_spread_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) := by
  refine broadcastTo_apply b h (ix2 p q) (ix2 0 q) fun a => ?_
  match a with
  | ⟨0, _⟩ => show (0 : ℕ) = if (1 : ℕ) = 1 then 0 else p.val; rfl
  | ⟨1, _⟩ =>
    show q.val = if N = 1 then 0 else q.val
    split
    · have := q.isLt; omega
    · rfl

end Cert.LibTransposedDense

end
-- ==== Proof.BlockValue.lean ====
/-
  What one grid point of each layer computes, entry by entry.

  At a grid point the kernel holds a block of 2000 rows of the neighbour means and of the node features, both weight
  matrices whole, and both biases as [1, 128] rows.  It rounds the four matrices to a narrower float format (the
  identity over the extended reals), transposes the weights, multiplies on the matrix unit into zero accumulators, adds
  the two products, then the two bias rows spread over the 2000 rows; the first layer then floors the sum at zero.  So
  entry (r, q) of the block it stores is the layer's entry for row r of the blocks and row q of the weights.
-/
import proofs.«161437_j8452495639005_1_alg».proof.Proof.Gen.KernelIdeal.Skeleton
import proofs.«161437_j8452495639005_1_alg».proof.Proof.LibTransposedDense

noncomputable section

namespace Cert.KernelIdeal.BlockValue

open Cert.KernelIdeal Cert.KernelIdeal.Gen Cert.LibTransposedDense
open Idealize.ShloMosaic Idealize.ShloMosaic.ValueIdx

/-- A [1, 128] row as the length-128 vector it is. -/
def rowVec (b : Vec Ideal S1x128 .f32) : (⟨1, ![128]⟩ : Shape).Idx → EReal := fun j => b (ix2 0 (j 0))

theorem rowVec_ix1 (b : Vec Ideal S1x128 .f32) (q : Fin 128) : rowVec b (ix1 q) = b (ix2 0 q) := rfl

/-- The first layer's stored block at entry (r, q): the layer's entry, floored at zero. -/
theorem hidden_block_apply (a x : Vec Ideal S2000x128 .f32) (wn ws : Vec Ideal S128x128 .f32) (bn bs : Vec Ideal S1x128 .f32)
    (r : Fin 2000) (q : Fin 128) :
    k0_pay1 (F := Ideal) a x wn ws bn bs (ix2 r q)
      = max (affineAt a x wn ws (rowVec bn) (rowVec bs) r q) (Ideal.ofBits .f32 0x00000000#32) := by
  unfold k0_pay1
  simp only [maximumf_apply, addf_apply, broadcast_apply]
  rw [matmul_transposed_apply _ rfl rfl rfl rfl rfl rfl, matmul_transposed_apply _ rfl rfl rfl rfl rfl rfl,
    row_spread_apply, row_spread_apply]
  simp only [shapeCast_self]
  rfl

/-- The second layer's stored block at entry (r, q): the layer's entry. -/
theorem output_block_apply (a x : Vec Ideal S2000x128 .f32) (wn ws : Vec Ideal S128x128 .f32) (bn bs : Vec Ideal S1x128 .f32)
    (r : Fin 2000) (q : Fin 128) :
    k1_pay1 (F := Ideal) a x wn ws bn bs (ix2 r q) = affineAt a x wn ws (rowVec bn) (rowVec bs) r q := by
  unfold k1_pay1
  simp only [addf_apply]
  rw [matmul_transposed_apply _ rfl rfl rfl rfl rfl rfl, matmul_transposed_apply _ rfl rfl rfl rfl rfl rfl,
    row_spread_apply, row_spread_apply]
  simp only [shapeCast_self]
  rfl

end Cert.KernelIdeal.BlockValue

end
-- ==== Proof.RegionValue.lean ====
/-
  Each layer's result array after its grid.

  A layer's grid has fifty points; point t holds rows 2000·t … 2000·t + 1999 of the neighbour means and of the node
  features, the two weight matrices and the two bias rows whole, and writes rows 2000·t … 2000·t + 1999 of the result.
  The stored block's entry (r, q) is the layer's entry computed from the blocks' row r, that is from the arrays' row
  2000·t + r; the fifty blocks tile the 100000 rows.  So after the grid the result array is the layer applied to the
  arrays the grid was entered with — whatever those are: everything here is stated for arbitrary entry contents.
-/
import proofs.«161437_j8452495639005_1_alg».proof.Proof.Gen.KernelIdeal.Frame
import proofs.«161437_j8452495639005_1_alg».proof.Proof.BlockValue
import Idealize.ShloMosaic.Lib.Pipeline.Value

set_option maxRecDepth 16384

noncomputable section

namespace Cert.KernelIdeal.RegionValue

open Cert.KernelIdeal Cert.KernelIdeal.Gen Cert.KernelIdeal.BlockValue Cert.LibTransposedDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block n of fifty blocks of 2000 rows. -/
def blockRow (n : ℕ) (hn : n < 50) (r : Fin 2000) : Fin 100000 := ⟨n * 2000 + r.val, by have := r.isLt; omega⟩

/-! ## The first layer's grid -/

/-- The index maps decided once over the fifty points: the three row-blocked windows (neighbour means, features,
    result) sit at block row t, the four small windows (weights and bias rows) at the origin. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 50 :=
  (by decide +kernel : ∀ t : Fin grid0.N, _)

/-- Every block row is some point's. -/
theorem point_of_row0 : ∀ n : Fin 50, ∃ t : Fin cfg0.N, t.val = n.val :=
  (by decide +kernel : ∀ n : Fin 50, ∃ t : Fin grid0.N, t.val = n.val)

/-- The layer applied to the arrays the region is entered with. -/
abbrev layer0 (c : Dev nD) : (⟨2, ![100000, 128]⟩ : Shape).Idx → EReal :=
  floored (V c main_v24) (V c main_arg0) (V c main_arg2) (V c main_arg4) (rowVec (V c main_v25)) (rowVec (V c main_v26))

/-- A row-blocked input window's block at point t is rows 2000·t … 2000·t + 1999 of its array. -/
theorem means_block0 (c : Dev nD) (t : Fin cfg0.N) (ht : t.val < 50) (r : Fin 2000) (k : Fin 128) :
    iblk0 V c 0 t (ix2 r k) = V c main_v24 (ix2 (blockRow t.val ht r) k) := by
  obtain ⟨e00, e01, -⟩ := index_facts0 t
  show V c main_v24 (((cfg0.win 0).blk t).view.emb (ix2 r k)) = V c main_v24 (ix2 (blockRow t.val ht r) k)
  refine congrArg (V c main_v24) (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

theorem features_block0 (c : Dev nD) (t : Fin cfg0.N) (ht : t.val < 50) (r : Fin 2000) (k : Fin 128) :
    iblk0 V c 1 t (ix2 r k) = V c main_arg0 (ix2 (blockRow t.val ht r) k) := by
  obtain ⟨-, -, e10, e11, -⟩ := index_facts0 t
  show V c main_arg0 (((cfg0.win 1).blk t).view.emb (ix2 r k)) = V c main_arg0 (ix2 (blockRow t.val ht r) k)
  refine congrArg (V c main_arg0) (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

/-- The weights and the bias rows are staged whole: their one block is the array. -/
theorem wn_block0 (c : Dev nD) (t : Fin cfg0.N) (q k : Fin 128) :
    iblk0 V c 2 t (ix2 q k) = V c main_arg2 (ix2 q k) := by
  obtain ⟨-, -, -, -, e20, e21, -⟩ := index_facts0 t
  show V c main_arg2 (((cfg0.win 2).blk t).view.emb (ix2 q k)) = V c main_arg2 (ix2 q k)
  refine congrArg (V c main_arg2) (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

theorem bn_block0 (c : Dev nD) (t : Fin cfg0.N) (q : Fin 128) :
    iblk0 V c 3 t (ix2 0 q) = V c main_v25 (ix2 0 q) := by
  obtain ⟨-, -, -, -, -, -, e30, e31, -⟩ := index_facts0 t
  show V c main_v25 (((cfg0.win 3).blk t).view.emb (ix2 0 q)) = V c main_v25 (ix2 0 q)
  refine congrArg (V c main_v25) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem ws_block0 (c : Dev nD) (t : Fin cfg0.N) (q k : Fin 128) :
    iblk0 V c 4 t (ix2 q k) = V c main_arg4 (ix2 q k) := by
  obtain ⟨-, -, -, -, -, -, -, -, e40, e41, -⟩ := index_facts0 t
  show V c main_arg4 (((cfg0.win 4).blk t).view.emb (ix2 q k)) = V c main_arg4 (ix2 q k)
  refine congrArg (V c main_arg4) (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

theorem bs_block0 (c : Dev nD) (t : Fin cfg0.N) (q : Fin 128) :
    iblk0 V c 5 t (ix2 0 q) = V c main_v26 (ix2 0 q) := by
  obtain ⟨-, -, -, -, -, -, -, -, -, -, e50, e51, -⟩ := index_facts0 t
  show V c main_v26 (((cfg0.win 5).blk t).view.emb (ix2 0 q)) = V c main_v26 (ix2 0 q)
  refine congrArg (V c main_v26) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Entry (r, q) of the result window's block at point t sits at row 2000·t + r of the result array. -/
theorem result_row0 (t : Fin cfg0.N) (ht : t.val < 50) (r : Fin 2000) (q : Fin 128) :
    ((cfg0.win 6).blk t).view.emb (ix2 r q) = ix2 (blockRow t.val ht r) q := by
  obtain ⟨-, -, -, -, -, -, -, -, -, -, -, -, e60, e61, -⟩ := index_facts0 t
  refine funext fun a => Fin.ext ?_
  match a with
  | ⟨0, _⟩ => show win0_6.index t (0 : Fin 2) * 2000 + 1 * r.val = t.val * 2000 + r.val; omega
  | ⟨1, _⟩ => show win0_6.index t (1 : Fin 2) * 128 + 1 * q.val = q.val; omega

/-- What point t writes back is block t of the layer of the entry arrays: the stored block's entry (r, q) is the
    layer's entry for the block's row r, which is the arrays' row 2000·t + r. -/
theorem flushed0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets,
    View.ld_unit_zero (S := S1x128) zero_offsets]
  have ht : t.val < 50 := (index_facts0 t).2.2.2.2.2.2.2.2.2.2.2.2.2.2
  funext j
  obtain ⟨r, q, rfl⟩ : ∃ (r : Fin 2000) (q : Fin 128), j = ix2 r q := ⟨j 0, j 1, eq_ix2 j⟩
  show k0_pay1 (F := Ideal) (iblk0 V c 0 t) (iblk0 V c 1 t) (iblk0 V c 2 t) (iblk0 V c 4 t) (iblk0 V c 3 t) (iblk0 V c 5 t) (ix2 r q)
    = layer0 V c (((cfg0.win 6).blk t).view.emb (ix2 r q))
  rw [result_row0 t ht r q]
  refine (hidden_block_apply (iblk0 V c 0 t) (iblk0 V c 1 t) (iblk0 V c 2 t) (iblk0 V c 4 t) (iblk0 V c 3 t) (iblk0 V c 5 t) r q).trans ?_
  show _ = max (affineAt (V c main_v24) (V c main_arg0) (V c main_arg2) (V c main_arg4) (rowVec (V c main_v25)) (rowVec (V c main_v26)) (blockRow t.val ht r) q) (Ideal.ofBits .f32 0x00000000#32)
  unfold affineAt rowDot
  simp only [rowVec_ix1, means_block0 V c t ht, features_block0 V c t ht, wn_block0 V c t, ws_block0 V c t,
    bn_block0 V c t, bs_block0 V c t]

/-- An index of the result array is in point t's block iff each coordinate is in the block's range. -/
theorem mem_block0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v27).slice (win0_6.rect t)).set ↔ _
  rw [View.set_slice_whole, Rect.mem_set_unit]
  exact Iff.rfl

/-- The fifty blocks tile the result array: row n lies in block n / 2000. -/
theorem covered0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := point_of_row0 ⟨(i 0).val / 2000, by omega⟩
  have ht' : t.val = (i 0).val / 2000 := ht
  obtain ⟨-, -, -, -, -, -, -, -, -, -, -, -, e60, e61, -⟩ := index_facts0 t
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After the grid the result array holds the layer of the arrays the region was entered with. -/
theorem array0 (c : Dev nD) : (dat0 V c).arrAt 6 cfg0.N = layer0 V c :=
  (dat0 V c).arrAt_eq_of_cover 6 (layer0 V c) (fun t _ => flushed0 V c t) covered0

/-! ## The second layer's grid -/

/-- The index maps decided once over the fifty points: the three row-blocked windows (neighbour means, features,
    result) sit at block row t, the four small windows (weights and bias rows) at the origin. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 50 :=
  (by decide +kernel : ∀ t : Fin grid1.N, _)

/-- Every block row is some point's. -/
theorem point_of_row1 : ∀ n : Fin 50, ∃ t : Fin cfg1.N, t.val = n.val :=
  (by decide +kernel : ∀ n : Fin 50, ∃ t : Fin grid1.N, t.val = n.val)

/-- The layer applied to the arrays the region is entered with. -/
abbrev layer1 (c : Dev nD) : (⟨2, ![100000, 128]⟩ : Shape).Idx → EReal :=
  affine (V c main_v40) (V c main_v27) (V c main_arg6) (V c main_arg8) (rowVec (V c main_v41)) (rowVec (V c main_v42))

/-- A row-blocked input window's block at point t is rows 2000·t … 2000·t + 1999 of its array. -/
theorem means_block1 (c : Dev nD) (t : Fin cfg1.N) (ht : t.val < 50) (r : Fin 2000) (k : Fin 128) :
    iblk1 V c 0 t (ix2 r k) = V c main_v40 (ix2 (blockRow t.val ht r) k) := by
  obtain ⟨e00, e01, -⟩ := index_facts1 t
  show V c main_v40 (((cfg1.win 0).blk t).view.emb (ix2 r k)) = V c main_v40 (ix2 (blockRow t.val ht r) k)
  refine congrArg (V c main_v40) (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * k.val = k.val; omega

theorem features_block1 (c : Dev nD) (t : Fin cfg1.N) (ht : t.val < 50) (r : Fin 2000) (k : Fin 128) :
    iblk1 V c 1 t (ix2 r k) = V c main_v27 (ix2 (blockRow t.val ht r) k) := by
  obtain ⟨-, -, e10, e11, -⟩ := index_facts1 t
  show V c main_v27 (((cfg1.win 1).blk t).view.emb (ix2 r k)) = V c main_v27 (ix2 (blockRow t.val ht r) k)
  refine congrArg (V c main_v27) (funext fun a => Fin.ext ?_)
  match a with
  | ⟨0, _⟩ => show win1_1.index t (0 : Fin 2) * 2000 + 1 * r.val = t.val * 2000 + r.val; omega
  | ⟨1, _⟩ => show win1_1.index t (1 : Fin 2) * 128 + 1 * k.val = k.val; omega

/-- The weights and the bias rows are staged whole: their one block is the array. -/
theorem wn_block1 (c : Dev nD) (t : Fin cfg1.N) (q k : Fin 128) :
    iblk1 V c 2 t (ix2 q k) = V c main_arg6 (ix2 q k) := by
  obtain ⟨-, -, -, -, e20, e21, -⟩ := index_facts1 t
  show V c main_arg6 (((cfg1.win 2).blk t).view.emb (ix2 q k)) = V c main_arg6 (ix2 q k)
  refine congrArg (V c main_arg6) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

theorem bn_block1 (c : Dev nD) (t : Fin cfg1.N) (q : Fin 128) :
    iblk1 V c 3 t (ix2 0 q) = V c main_v41 (ix2 0 q) := by
  obtain ⟨-, -, -, -, -, -, e30, e31, -⟩ := index_facts1 t
  show V c main_v41 (((cfg1.win 3).blk t).view.emb (ix2 0 q)) = V c main_v41 (ix2 0 q)
  refine congrArg (V c main_v41) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem ws_block1 (c : Dev nD) (t : Fin cfg1.N) (q k : Fin 128) :
    iblk1 V c 4 t (ix2 q k) = V c main_arg8 (ix2 q k) := by
  obtain ⟨-, -, -, -, -, -, -, -, e40, e41, -⟩ := index_facts1 t
  show V c main_arg8 (((cfg1.win 4).blk t).view.emb (ix2 q k)) = V c main_arg8 (ix2 q k)
  refine congrArg (V c main_arg8) (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

theorem bs_block1 (c : Dev nD) (t : Fin cfg1.N) (q : Fin 128) :
    iblk1 V c 5 t (ix2 0 q) = V c main_v42 (ix2 0 q) := by
  obtain ⟨-, -, -, -, -, -, -, -, -, -, e50, e51, -⟩ := index_facts1 t
  show V c main_v42 (((cfg1.win 5).blk t).view.emb (ix2 0 q)) = V c main_v42 (ix2 0 q)
  refine congrArg (V c main_v42) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Entry (r, q) of the result window's block at point t sits at row 2000·t + r of the result array. -/
theorem result_row1 (t : Fin cfg1.N) (ht : t.val < 50) (r : Fin 2000) (q : Fin 128) :
    ((cfg1.win 6).blk t).view.emb (ix2 r q) = ix2 (blockRow t.val ht r) q := by
  obtain ⟨-, -, -, -, -, -, -, -, -, -, -, -, e60, e61, -⟩ := index_facts1 t
  refine funext fun a => Fin.ext ?_
  match a with
  | ⟨0, _⟩ => show win1_6.index t (0 : Fin 2) * 2000 + 1 * r.val = t.val * 2000 + r.val; omega
  | ⟨1, _⟩ => show win1_6.index t (1 : Fin 2) * 128 + 1 * q.val = q.val; omega

/-- What point t writes back is block t of the layer of the entry arrays: the stored block's entry (r, q) is the
    layer's entry for the block's row r, which is the arrays' row 2000·t + r. -/
theorem flushed1 (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S128x128) zero_offsets,
    View.ld_unit_zero (S := S1x128) zero_offsets]
  have ht : t.val < 50 := (index_facts1 t).2.2.2.2.2.2.2.2.2.2.2.2.2.2
  funext j
  obtain ⟨r, q, rfl⟩ : ∃ (r : Fin 2000) (q : Fin 128), j = ix2 r q := ⟨j 0, j 1, eq_ix2 j⟩
  show k1_pay1 (F := Ideal) (iblk1 V c 0 t) (iblk1 V c 1 t) (iblk1 V c 2 t) (iblk1 V c 4 t) (iblk1 V c 3 t) (iblk1 V c 5 t) (ix2 r q)
    = layer1 V c (((cfg1.win 6).blk t).view.emb (ix2 r q))
  rw [result_row1 t ht r q]
  refine (output_block_apply (iblk1 V c 0 t) (iblk1 V c 1 t) (iblk1 V c 2 t) (iblk1 V c 4 t) (iblk1 V c 3 t) (iblk1 V c 5 t) r q).trans ?_
  show _ = affineAt (V c main_v40) (V c main_v27) (V c main_arg6) (V c main_arg8) (rowVec (V c main_v41)) (rowVec (V c main_v42)) (blockRow t.val ht r) q
  unfold affineAt rowDot
  simp only [rowVec_ix1, means_block1 V c t ht, features_block1 V c t ht, wn_block1 V c t, ws_block1 V c t,
    bn_block1 V c t, bs_block1 V c t]

/-- An index of the result array is in point t's block iff each coordinate is in the block's range. -/
theorem mem_block1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v43).slice (win1_6.rect t)).set ↔ _
  rw [View.set_slice_whole, Rect.mem_set_unit]
  exact Iff.rfl

/-- The fifty blocks tile the result array: row n lies in block n / 2000. -/
theorem covered1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := point_of_row1 ⟨(i 0).val / 2000, by omega⟩
  have ht' : t.val = (i 0).val / 2000 := ht
  obtain ⟨-, -, -, -, -, -, -, -, -, -, -, -, e60, e61, -⟩ := index_facts1 t
  refine ⟨t, flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After the grid the result array holds the layer of the arrays the region was entered with. -/
theorem array1 (c : Dev nD) : (dat1 V c).arrAt 6 cfg1.N = layer1 V c :=
  (dat1 V c).arrAt_eq_of_cover 6 (layer1 V c) (fun t _ => flushed1 V c t) covered1

end Cert.KernelIdeal.RegionValue

end
-- ==== Proof.ReferenceValue.lean ====
/-
  The reference's result as two layers.

  The reference computes, on the host, the neighbour means of the features (a gather of source rows, a scatter-add
  into destination rows, a scaling by the reciprocal of the clamped in-degree), the first layer floored at zero, the
  neighbour means of that, and the second layer.  Each layer is written there as
  ((means · Wnᵀ + bn) + features · Wsᵀ) + bs with the biases spread over the rows; entry by entry this is the layer of
  the specification, after one exchange of summands.  The neighbour means are kept as the whole-array map they are:
  the second aggregation is the first one applied to the hidden features, operation for operation.
-/
import proofs.«161437_j8452495639005_1_alg».proof.Proof.Gen.ReferenceIdeal.Read
import proofs.«161437_j8452495639005_1_alg».proof.Proof.LibTransposedDense

noncomputable section

namespace Cert.ReferenceIdeal.RefValue

open Cert.ReferenceIdeal Cert.ReferenceIdeal.Gen Cert.ReferenceIdeal.Read Cert.LibTransposedDense
open Idealize.ShloMosaic Idealize.ShloMosaic.ValueIdx Idealize.SL.Sem

/-- The neighbour means of a feature array along the edge list: the reference's own stage, as a map of whole arrays. -/
abbrev means (h : FVec Ideal S100000x128 .f32) (e : IVec S2x1600000 32) : FVec Ideal S100000x128 .f32 :=
  val_main_v24 (F := Ideal) h e

/-- The hidden features: the first layer of the features and their neighbour means, floored at zero. -/
abbrev hiddenOf (x : FVec Ideal S100000x128 .f32) (e : IVec S2x1600000 32) (wn ws : FVec Ideal S128x128 .f32)
    (bn bs : FVec Ideal S128 .f32) : (⟨2, ![100000, 128]⟩ : Shape).Idx → EReal :=
  floored (means x e) x wn ws bn bs

/-- The whole network: the second layer of the hidden features and their neighbour means. -/
abbrev network (x : FVec Ideal S100000x128 .f32) (e : IVec S2x1600000 32) (wn1 : FVec Ideal S128x128 .f32)
    (bn1 : FVec Ideal S128 .f32) (ws1 : FVec Ideal S128x128 .f32) (bs1 : FVec Ideal S128 .f32)
    (wn2 : FVec Ideal S128x128 .f32) (bn2 : FVec Ideal S128 .f32) (ws2 : FVec Ideal S128x128 .f32)
    (bs2 : FVec Ideal S128 .f32) : (⟨2, ![100000, 128]⟩ : Shape).Idx → EReal :=
  affine (means (hiddenOf x e wn1 ws1 bn1 bs1) e) (hiddenOf x e wn1 ws1 bn1 bs1) wn2 ws2 bn2 bs2

/-- One layer as the host spells it, at entry (p, q). -/
theorem host_layer_apply (a x : FVec Ideal S100000x128 .f32) (wn ws : FVec Ideal S128x128 .f32) (bn bs : FVec Ideal S128 .f32)
    (p : Fin 100000) (q : Fin 128) :
    addf (addf (addf
        (Host.dotGeneral dot_S100000x128_S128x128_S100000x128_1_0_0_1_n_n none a (transpose S128x128 [1, 0] wn transposes_S128x128_S128x128_1_0))
        (broadcastInDim S100000x128 ![0, 1] bcast_S1x128_S100000x128_0_1 (broadcastInDim S1x128 ![1] bcast_S128_S1x128_1 bn)))
        (Host.dotGeneral dot_S100000x128_S128x128_S100000x128_1_0_0_1_n_n none x (transpose S128x128 [1, 0] ws transposes_S128x128_S128x128_1_0)))
        (broadcastInDim S100000x128 ![0, 1] bcast_S1x128_S100000x128_0_1 (broadcastInDim S1x128 ![1] bcast_S128_S1x128_1 bs)) (ix2 p q)
      = affineAt a x wn ws bn bs p q := by
  simp only [addf_apply]
  rw [dotGeneral_transposed_apply _ rfl rfl rfl rfl rfl rfl, dotGeneral_transposed_apply _ rfl rfl rfl rfl rfl rfl,
    Cert.LibSpreadRow.spread_row_apply, Cert.LibSpreadRow.spread_row_apply]
  exact affineAt_regroup a x wn ws bn bs p q

/-- The reference's hidden features are the first layer, floored. -/
theorem hidden_eq (x : FVec Ideal S100000x128 .f32) (e : IVec S2x1600000 32) (wn ws : FVec Ideal S128x128 .f32)
    (bn bs : FVec Ideal S128 .f32) :
    val_main_v36 (F := Ideal) x e wn bn ws bs = hiddenOf x e wn ws bn bs := by
  funext i
  obtain ⟨p, q, rfl⟩ : ∃ (p : Fin 100000) (q : Fin 128), i = ix2 p q := ⟨i 0, i 1, eq_ix2 i⟩
  unfold val_main_v36
  rw [maximumf_apply]
  unfold val_main_v35 val_main_v34 val_main_v33 val_main_v32 val_main_v31 val_main_v30 val_main_v29 val_main_v28
    val_main_v27 val_main_v26 val_main_v25 val_main_call0_v0 val_main_call0_cst
  rw [host_layer_apply, Cert.LibSpreadRow.spread_const_apply]
  exact (floored_ix2 (means x e) x wn ws bn bs p q).symm

/-- The second aggregation is the first one, applied to the hidden features. -/
theorem second_means_eq (x : FVec Ideal S100000x128 .f32) (e : IVec S2x1600000 32) (wn ws : FVec Ideal S128x128 .f32)
    (bn bs : FVec Ideal S128 .f32) :
    val_main_v49 (F := Ideal) x e wn bn ws bs = means (val_main_v36 (F := Ideal) x e wn bn ws bs) e := rfl

/-- The reference's result is the network of the specification. -/
theorem result_eq (x : FVec Ideal S100000x128 .f32) (e : IVec S2x1600000 32) (wn1 : FVec Ideal S128x128 .f32)
    (bn1 : FVec Ideal S128 .f32) (ws1 : FVec Ideal S128x128 .f32) (bs1 : FVec Ideal S128 .f32)
    (wn2 : FVec Ideal S128x128 .f32) (bn2 : FVec Ideal S128 .f32) (ws2 : FVec Ideal S128x128 .f32)
    (bs2 : FVec Ideal S128 .f32) :
    val_main_v60 (F := Ideal) x e wn1 bn1 ws1 bs1 wn2 bn2 ws2 bs2 = network x e wn1 bn1 ws1 bs1 wn2 bn2 ws2 bs2 := by
  funext i
  obtain ⟨p, q, rfl⟩ : ∃ (p : Fin 100000) (q : Fin 128), i = ix2 p q := ⟨i 0, i 1, eq_ix2 i⟩
  unfold val_main_v60 val_main_v59 val_main_v58 val_main_v57 val_main_v56 val_main_v55 val_main_v54 val_main_v53
    val_main_v52 val_main_v51 val_main_v50
  rw [host_layer_apply, second_means_eq, hidden_eq]
  exact (affine_ix2 (means (hiddenOf x e wn1 ws1 bn1 bs1) e) (hiddenOf x e wn1 ws1 bn1 bs1) wn2 ws2 bn2 bs2 p q).symm

end Cert.ReferenceIdeal.RefValue

end
-- ==== Proof.KernelValue.lean ====
/-
  The idealized kernel's result as a function of its arguments.

  The last boundary's contents at the result buffer are the second grid's result array: the second layer applied to
  the arrays that grid was entered with.  Those are what the second host stretch leaves: the neighbour means of the
  first grid's result (gathered, scattered and scaled exactly as the reference does it, from the edge lists and the
  reciprocal in-degrees that the first stretch computed), that result itself, the second pair of weights, and the
  second pair of biases reshaped to rows.  The first grid's result is in turn the floored first layer of the arrays the
  first stretch leaves: the neighbour means of the features, the features, the first weights and bias rows.  A bias
  reshaped to a [1, 128] row and read back as a vector is the bias.  Put together, the result is the two-layer network
  of the arguments.
-/
import proofs.«161437_j8452495639005_1_alg».proof.Proof.KernelRun
import proofs.«161437_j8452495639005_1_alg».proof.Proof.RegionValue
import proofs.«161437_j8452495639005_1_alg».proof.Proof.ReferenceValue
import Idealize.ShloMosaic.Lib.StableHlo.Run

set_option maxRecDepth 16384

noncomputable section

namespace Cert.KernelIdeal.KernelValue

open Cert.KernelIdeal Cert.KernelIdeal.Gen Cert.KernelIdeal.BlockValue Cert.KernelIdeal.RegionValue Cert.LibTransposedDense
open Idealize.ShloMosaic Idealize.ShloMosaic.TcCoe Idealize.ShloMosaic.ValueIdx Idealize.SL.Sem Idealize.ShloMosaic.StableHlo

local notation "Ref.means" => Cert.ReferenceIdeal.RefValue.means
local notation "Ref.hiddenOf" => Cert.ReferenceIdeal.RefValue.hiddenOf
local notation "Ref.network" => Cert.ReferenceIdeal.RefValue.network

variable (m : (ℓ : Loc nD τ sig) → Buf (Elt Ideal) ℓ) (ρ : Dev nD → PrngReg)

/-- A bias reshaped to a [1, 128] row, read back as a vector, is the bias. -/
theorem rowVec_reshape (b : FVec Ideal S128 .f32) : rowVec (shapeCast S1x128 b shapeCasts_S128_S1x128) = b := by
  funext j
  obtain ⟨q, rfl⟩ : ∃ q : Fin 128, j = ix1 q := ⟨j 0, eq_ix1 j⟩
  exact Cert.LibSpreadRow.reshape_row_apply b shapeCasts_S128_S1x128 q

/-! ## What the first host stretch leaves -/

theorem first_means (c : Dev nD) :
    V1 m ρ c main_v24 = Ref.means (m ((c.tc : Thread nD τ).loc main_arg0)) (m ((c.tc : Thread nD τ).loc main_arg1)) := by
  show StableHlo.after hostOps0 (W0 m ρ c) (Proc.devRef .tc main_v24) = _
  after_results_simp
  rfl

theorem first_features (c : Dev nD) : V1 m ρ c main_arg0 = m ((c.tc : Thread nD τ).loc main_arg0) := by
  show StableHlo.after hostOps0 (W0 m ρ c) (Proc.devRef .tc main_arg0) = _
  after_results_simp <;> rfl

theorem first_wn (c : Dev nD) : V1 m ρ c main_arg2 = m ((c.tc : Thread nD τ).loc main_arg2) := by
  show StableHlo.after hostOps0 (W0 m ρ c) (Proc.devRef .tc main_arg2) = _
  after_results_simp <;> rfl

theorem first_ws (c : Dev nD) : V1 m ρ c main_arg4 = m ((c.tc : Thread nD τ).loc main_arg4) := by
  show StableHlo.after hostOps0 (W0 m ρ c) (Proc.devRef .tc main_arg4) = _
  after_results_simp <;> rfl

theorem first_bn (c : Dev nD) :
    V1 m ρ c main_v25 = shapeCast S1x128 (m ((c.tc : Thread nD τ).loc main_arg3)) shapeCasts_S128_S1x128 := by
  show StableHlo.after hostOps0 (W0 m ρ c) (Proc.devRef .tc main_v25) = _
  after_results_simp <;> rfl

theorem first_bs (c : Dev nD) :
    V1 m ρ c main_v26 = shapeCast S1x128 (m ((c.tc : Thread nD τ).loc main_arg5)) shapeCasts_S128_S1x128 := by
  show StableHlo.after hostOps0 (W0 m ρ c) (Proc.devRef .tc main_v26) = _
  after_results_simp <;> rfl

/-- The first grid's result array: the hidden features. -/
theorem hidden_value (c : Dev nD) :
    (dat0 (V1 m ρ) c).arrAt 6 cfg0.N
      = Ref.hiddenOf (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)) := by
  refine (array0 (V1 m ρ) c).trans ?_
  show floored (V1 m ρ c main_v24) (V1 m ρ c main_arg0) (V1 m ρ c main_arg2) (V1 m ρ c main_arg4)
    (rowVec (V1 m ρ c main_v25)) (rowVec (V1 m ρ c main_v26)) = _
  rw [first_means, first_features, first_wn, first_ws, first_bn, first_bs, rowVec_reshape, rowVec_reshape]

/-! ## The contents between the two grids -/

theorem between_hidden (c : Dev nD) :
    W2 m ρ c (Proc.devRef .tc main_v27)
      = Ref.hiddenOf (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)) :=
  (W2_arr m ρ c 6).trans (hidden_value m ρ c)

/-- The edge sources, the edge destinations and the reciprocal in-degrees are the first stretch's, untouched by the
    first grid. -/
theorem between_src (c : Dev nD) :
    W2 m ρ c (Proc.devRef .tc main_v1) = Cert.ReferenceIdeal.Read.val_main_v1 (F := Ideal) (m ((c.tc : Thread nD τ).loc main_arg1)) := by
  refine (W2_of_ne m ρ c main_v1 (by decide)).trans ?_
  show StableHlo.after hostOps0 (W0 m ρ c) (Proc.devRef .tc main_v1) = _
  after_results_simp <;> rfl

theorem between_dst (c : Dev nD) :
    W2 m ρ c (Proc.devRef .tc main_v3) = Cert.ReferenceIdeal.Read.val_main_v3 (F := Ideal) (m ((c.tc : Thread nD τ).loc main_arg1)) := by
  refine (W2_of_ne m ρ c main_v3 (by decide)).trans ?_
  show StableHlo.after hostOps0 (W0 m ρ c) (Proc.devRef .tc main_v3) = _
  after_results_simp <;> rfl

theorem between_invdeg (c : Dev nD) :
    W2 m ρ c (Proc.devRef .tc main_v11) = Cert.ReferenceIdeal.Read.val_main_v11 (F := Ideal) (m ((c.tc : Thread nD τ).loc main_arg1)) := by
  refine (W2_of_ne m ρ c main_v11 (by decide)).trans ?_
  show StableHlo.after hostOps0 (W0 m ρ c) (Proc.devRef .tc main_v11) = _
  after_results_simp <;> rfl

theorem between_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results_simp <;> rfl

theorem between_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results_simp <;> rfl

theorem between_arg8 (c : Dev nD) : W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = _
  after_results_simp <;> rfl

theorem between_arg9 (c : Dev nD) : W2 m ρ c (Proc.devRef .tc main_arg9) = m ((c.tc : Thread nD τ).loc main_arg9) := by
  refine (W2_of_ne m ρ c main_arg9 (by decide)).trans ?_
  show StableHlo.after hostOps0 (W0 m ρ c) (Proc.devRef .tc main_arg9) = _
  after_results_simp <;> rfl

/-! ## What the second host stretch leaves -/

theorem second_means (c : Dev nD) :
    V3 m ρ c main_v40
      = Ref.means (Ref.hiddenOf (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)))
          (m ((c.tc : Thread nD τ).loc main_arg1)) := by
  show StableHlo.after hostOps1 (W2 m ρ c) (Proc.devRef .tc main_v40) = _
  after_results_simp
  rw [between_hidden, between_src, between_dst, between_invdeg]
  rfl

theorem second_features (c : Dev nD) :
    V3 m ρ c main_v27
      = Ref.hiddenOf (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)) := by
  show StableHlo.after hostOps1 (W2 m ρ c) (Proc.devRef .tc main_v27) = _
  after_results_simp
  exact between_hidden m ρ c

theorem second_wn (c : Dev nD) : V3 m ρ c main_arg6 = m ((c.tc : Thread nD τ).loc main_arg6) := by
  show StableHlo.after hostOps1 (W2 m ρ c) (Proc.devRef .tc main_arg6) = _
  after_results_simp
  exact between_arg6 m ρ c

theorem second_ws (c : Dev nD) : V3 m ρ c main_arg8 = m ((c.tc : Thread nD τ).loc main_arg8) := by
  show StableHlo.after hostOps1 (W2 m ρ c) (Proc.devRef .tc main_arg8) = _
  after_results_simp
  exact between_arg8 m ρ c

theorem second_bn (c : Dev nD) :
    V3 m ρ c main_v41 = shapeCast S1x128 (m ((c.tc : Thread nD τ).loc main_arg7)) shapeCasts_S128_S1x128 := by
  show StableHlo.after hostOps1 (W2 m ρ c) (Proc.devRef .tc main_v41) = _
  after_results_simp
  rw [between_arg7]
  rfl

theorem second_bs (c : Dev nD) :
    V3 m ρ c main_v42 = shapeCast S1x128 (m ((c.tc : Thread nD τ).loc main_arg9)) shapeCasts_S128_S1x128 := by
  show StableHlo.after hostOps1 (W2 m ρ c) (Proc.devRef .tc main_v42) = _
  after_results_simp
  rw [between_arg9]
  rfl

/-! ## The result -/

/-- The last boundary's contents at the result buffer: the two-layer network of the arguments. -/
theorem result_value (c : Dev nD) :
    W4 m ρ c (Proc.devRef .tc main_v43)
      = Ref.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  refine (W4_arr m ρ c 6).trans ((array1 (V3 m ρ) c).trans ?_)
  show affine (V3 m ρ c main_v40) (V3 m ρ c main_v27) (V3 m ρ c main_arg6) (V3 m ρ c main_arg8)
    (rowVec (V3 m ρ c main_v41)) (rowVec (V3 m ρ c main_v42)) = _
  rw [second_means, second_features, second_wn, second_ws, second_bn, second_bs, rowVec_reshape, rowVec_reshape]

end Cert.KernelIdeal.KernelValue

end
-- ==== Proof.lean ====
/-
  A two-layer mean-aggregating graph convolution: the kernel against its array-level reference, over the extended reals.

  Both programs compute, on the host and by the same operations, the neighbour means of a feature array along an edge
  list: rows gathered at the edge sources, added into the rows of the edge destinations, and scaled by the reciprocal of
  the in-degree clamped below at one.  A layer then maps features X and their neighbour means A to

      A · Wnᵀ + X · Wsᵀ + bn + bs        (the first layer floored at zero),

  and the network applies two layers, the second to the hidden features and to their neighbour means.

  The kernel computes each layer on a grid of fifty blocks of 2000 rows, the weights and bias rows held whole; a block's
  entry (r, q) is the layer's entry for the block's row r, and the blocks tile the 100000 rows, so each grid leaves the
  layer of the arrays it was entered with.  The reference spells a layer ((A · Wnᵀ + bn) + X · Wsᵀ) + bs; the two
  groupings of the four summands agree because addition of extended reals is commutative and associative, so nothing
  needs to be finite.  The narrower float format the kernel rounds the matrix operands to is the identity here, a
  product into a zero accumulator is the plain sum of products, and no literal other than 0 and 1 occurs, the same
  words on both sides.  The aggregation is never opened: it is the same map of whole arrays on both sides.

  The idealization rewrote nothing, so the kernel's idealization is its own text and that claim is trivial; the three
  runs are the generated ones (the kernel's with its result buffer kept, the reference's read back).
-/
import proofs.«161437_j8452495639005_1_alg».proof.Defs
import proofs.«161437_j8452495639005_1_alg».proof.Proof.Gen.Kernel
import proofs.«161437_j8452495639005_1_alg».proof.Proof.Gen.Kernel.Skeleton
import proofs.«161437_j8452495639005_1_alg».proof.Proof.Gen.Kernel.Launch
import proofs.«161437_j8452495639005_1_alg».proof.Proof.Gen.Kernel.Points
import proofs.«161437_j8452495639005_1_alg».proof.Proof.Gen.Kernel.Frame
import proofs.«161437_j8452495639005_1_alg».proof.Proof.Gen.KernelIdeal
import proofs.«161437_j8452495639005_1_alg».proof.Proof.Gen.KernelIdeal.Skeleton
import proofs.«161437_j8452495639005_1_alg».proof.Proof.Gen.KernelIdeal.Launch
import proofs.«161437_j8452495639005_1_alg».proof.Proof.Gen.KernelIdeal.Points
import proofs.«161437_j8452495639005_1_alg».proof.Proof.Gen.KernelIdeal.Frame
import proofs.«161437_j8452495639005_1_alg».proof.Proof.Gen.ReferenceIdeal
import proofs.«161437_j8452495639005_1_alg».proof.Proof.Gen.Pre_finite_inputs
import proofs.«161437_j8452495639005_1_alg».proof.Proof.Gen.ReferenceIdeal.Run
import proofs.«161437_j8452495639005_1_alg».proof.Proof.Gen.ReferenceIdeal.Read
import proofs.«161437_j8452495639005_1_alg».proof.Proof.KernelRun
import proofs.«161437_j8452495639005_1_alg».proof.Proof.KernelValue
import proofs.«161437_j8452495639005_1_alg».proof.Proof.ReferenceValue
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the two-layer network of the arguments in their
    result buffers, and with the arguments unchanged. -/
theorem algebraic : Cert.algebraic_KernelIdeal_ReferenceIdeal := by
  intro m ρ m' ρ' _ hagree
  refine ⟨fun c => Cert.ReferenceIdeal.RefValue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result_value m ρ c), (h c).2⟩)
      (Cert.KernelIdeal.Result.run_result m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v60_eq, Cert.ReferenceIdeal.RefValue.result_eq,
      e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
